-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x4096 : Shape := ⟨3, ![4096, 1, 4096]⟩
abbrev S4096x4096x4 : Shape := ⟨3, ![4096, 4096, 4]⟩
abbrev S4096x512 : Shape := ⟨2, ![4096, 512]⟩
abbrev S512x16384 : Shape := ⟨2, ![512, 16384]⟩
abbrev S16384 : Shape := ⟨1, ![16384]⟩
abbrev S_ : Shape := ⟨0, ![]⟩

class Facts : Prop where
  bcast_S_S4096x1x4096 : S_.BroadcastsInDim S4096x1x4096 (![] : Fin 0 → Fin S4096x1x4096.rank)
  reducesTo_S4096x1x4096_S_d0_1_2 : S4096x1x4096.ReducesTo [0, 1, 2] S_
  h_S_ : 0 < S_.numel
  bcast_S_S4096x4096x4 : S_.BroadcastsInDim S4096x4096x4 (![] : Fin 0 → Fin S4096x4096x4.rank)
  reducesTo_S4096x4096x4_S_d0_1_2 : S4096x4096x4.ReducesTo [0, 1, 2] S_
  bcast_S_S4096x512 : S_.BroadcastsInDim S4096x512 (![] : Fin 0 → Fin S4096x512.rank)
  reducesTo_S4096x512_S_d0_1 : S4096x512.ReducesTo [0, 1] S_
  bcast_S_S512x16384 : S_.BroadcastsInDim S512x16384 (![] : Fin 0 → Fin S512x16384.rank)
  reducesTo_S512x16384_S_d0_1 : S512x16384.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S512x16384 .f32) (main_arg5 : FVec F S16384 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S512x16384 .f32 := Host.absf main_arg4
  let main_cst_6 : FVec F S_ .f32 := constant S_ .f32 0x7F800000#32
  let main_v20 : FVec F S512x16384 .f32 := broadcastInDim S512x16384 ![] bcast_S_S512x16384 main_cst_6
  let main_v21 : IVec S512x16384 1 := cmpf .olt main_v19 main_v20
  let main_c_7 : IVec S_ 1 := constantI S_ 1 1#1
  let main_v22 : IVec S_ 1 := (fun x v => Host.reduce IntOp.andi x v reducesTo_S512x16384_S_d0_1 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  main_v28

def fn {F : FTy → Type} [FloatOps F] (main_arg0 : FVec F S4096x1x4096 .f32) (main_arg1 : FVec F S4096x1x4096 .f32) (main_arg2 : FVec F S4096x4096x4 .f32) (main_arg3 : FVec F S4096x512 .f32) (main_arg4 : FVec F S512x16384 .f32) (main_arg5 : FVec F S16384 .f32) : IVec S_ 1 :=
  let main_v0 : FVec F S4096x1x4096 .f32 := Host.absf main_arg0
  let main_cst : FVec F S_ .f32 := constant S_ .f32 0x7F800000#32
  let main_v1 : FVec F S4096x1x4096 .f32 := broadcastInDim S4096x1x4096 ![] bcast_S_S4096x1x4096 main_cst
  let main_v2 : IVec S4096x1x4096 1 := cmpf .olt main_v0 main_v1
  let main_c : IVec S_ 1 := constantI S_ 1 1#1
  let main_v3 : IVec S_ 1 := (fun x v => Host.reduce IntOp.andi x v reducesTo_S4096x1x4096_S_d0_1_2 h_S_) main_v2 main_c
  let main_v4 : FVec F S4096x1x4096 .f32 := Host.absf main_arg1
  let main_cst_0 : FVec F S_ .f32 := constant S_ .f32 0x7F800000#32
  let main_v5 : FVec F S4096x1x4096 .f32 := broadcastInDim S4096x1x4096 ![] bcast_S_S4096x1x4096 main_cst_0
  let main_v6 : IVec S4096x1x4096 1 := cmpf .olt main_v4 main_v5
  let main_c_1 : IVec S_ 1 := constantI S_ 1 1#1
  let main_v7 : IVec S_ 1 := (fun x v => Host.reduce IntOp.andi x v reducesTo_S4096x1x4096_S_d0_1_2 h_S_) main_v6 main_c_1
  let main_v8 : IVec S_ 1 := andi main_v3 main_v7
  let main_v9 : FVec F S4096x4096x4 .f32 := Host.absf main_arg2
  let main_cst_2 : FVec F S_ .f32 := constant S_ .f32 0x7F800000#32
  let main_v10 : FVec F S4096x4096x4 .f32 := broadcastInDim S4096x4096x4 ![] bcast_S_S4096x4096x4 main_cst_2
  let main_v11 : IVec S4096x4096x4 1 := cmpf .olt main_v9 main_v10
  let main_c_3 : IVec S_ 1 := constantI S_ 1 1#1
  let main_v12 : IVec S_ 1 := (fun x v => Host.reduce IntOp.andi x v reducesTo_S4096x4096x4_S_d0_1_2 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_v13 main_v16
-- ==== Kernel.lean ====
abbrev S4096x1x4096 : Shape := ⟨3, ![4096, 1, 4096]⟩
abbrev S4096x4096x4 : Shape := ⟨3, ![4096, 4096, 4]⟩
abbrev S4096x512 : Shape := ⟨2, ![4096, 512]⟩
abbrev S512x16384 : Shape := ⟨2, ![512, 16384]⟩
abbrev S16384 : Shape := ⟨1, ![16384]⟩
abbrev S512x4096x4 : Shape := ⟨3, ![512, 4096, 4]⟩
abbrev S4x512x4096 : Shape := ⟨3, ![4, 512, 4096]⟩
abbrev S4096x4 : Shape := ⟨2, ![4096, 4]⟩
abbrev S4x4096 : Shape := ⟨2, ![4, 4096]⟩
abbrev S4096x4x4096 : Shape := ⟨3, ![4096, 4, 4096]⟩
abbrev S32x1x4096 : Shape := ⟨3, ![32, 1, 4096]⟩
abbrev S32x4x4096 : Shape := ⟨3, ![32, 4, 4096]⟩
abbrev S32x4096 : Shape := ⟨2, ![32, 4096]⟩
abbrev S32x512 : Shape := ⟨2, ![32, 512]⟩
abbrev S1x512x4096 : Shape := ⟨3, ![1, 512, 4096]⟩
abbrev S512x4096 : Shape := ⟨2, ![512, 4096]⟩
abbrev S1x4096 : Shape := ⟨2, ![1, 4096]⟩
abbrev S4096 : Shape := ⟨1, ![4096]⟩

abbrev nBuf : Space → Nat
  | .hbm => 16
  | .vmem => 13
  | .smem => 0
  | _ => 0

abbrev bufTy : (tb : Table) → Fin (tcTables nBuf tb) → BufTy
  | .hbm, ⟨0, _⟩ => ⟨S4096x1x4096, .f32⟩
  | .hbm, ⟨1, _⟩ => ⟨S4096x1x4096, .f32⟩
  | .hbm, ⟨2, _⟩ => ⟨S4096x4096x4, .f32⟩
  | .hbm, ⟨3, _⟩ => ⟨S4096x512, .f32⟩
  | .hbm, ⟨4, _⟩ => ⟨S512x16384, .f32⟩
  | .hbm, ⟨5, _⟩ => ⟨S16384, .f32⟩
  | .hbm, ⟨6, _⟩ => ⟨S4096x512, .bf16⟩
  | .hbm, ⟨7, _⟩ => ⟨S512x4096x4, .f32⟩
  | .hbm, ⟨8, _⟩ => ⟨S4x512x4096, .f32⟩
  | .hbm, ⟨9, _⟩ => ⟨S4x512x4096, .bf16⟩
  | .hbm, ⟨10, _⟩ => ⟨S4096x4, .f32⟩
  | .hbm, ⟨11, _⟩ => ⟨S4x4096, .f32⟩
  | .hbm, ⟨12, _⟩ => ⟨S4096x4x4096, .f32⟩
  | .hbm, ⟨13, _⟩ => ⟨S4096x1x4096, .f32⟩
  | .hbm, ⟨14, _⟩ => ⟨S4096x4x4096, .f32⟩
  | .hbm, ⟨15, _⟩ => ⟨S4096x4096x4, .f32⟩
  | .local _ .vmem, ⟨0, _⟩ => ⟨S32x1x4096, .f32⟩
  | .local _ .vmem, ⟨1, _⟩ => ⟨S32x1x4096, .f32⟩
  | .local _ .vmem, ⟨2, _⟩ => ⟨S32x1x4096, .f32⟩
  | .local _ .vmem, ⟨3, _⟩ => ⟨S32x1x4096, .f32⟩
  | .local _ .vmem, ⟨4, _⟩ => ⟨S32x4x4096, .f32⟩
  | .local _ .vmem, ⟨5, _⟩ => ⟨S32x4x4096, .f32⟩
  | .local _ .vmem, ⟨6, _⟩ => ⟨S4096x512, .bf16⟩
  | .local _ .vmem, ⟨7, _⟩ => ⟨S4x512x4096, .bf16⟩
  | .local _ .vmem, ⟨8, _⟩ => ⟨S4x4096, .f32⟩
  | .local _ .vmem, ⟨9, _⟩ => ⟨S32x1x4096, .f32⟩
  | .local _ .vmem, ⟨10, _⟩ => ⟨S32x1x4096, .f32⟩
  | .local _ .vmem, ⟨11, _⟩ => ⟨S32x4x4096, .f32⟩
  | .local _ .vmem, ⟨12, _⟩ => ⟨S32x4x4096, .f32⟩
  | _, _ => ⟨S4096x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S512x16384_S512x4096x4 : S512x16384.ShapeCasts S512x4096x4
  transposes_S512x4096x4_S4x512x4096_2_0_1 : S512x4096x4.Transposes [2, 0, 1] S4x512x4096
  shapeCasts_S16384_S4096x4 : S16384.ShapeCasts S4096x4
  transposes_S4096x4_S4x4096_1_0 : S4096x4.Transposes [1, 0] S4x4096
  transposes_S4096x4096x4_S4096x4x4096_0_2_1 : S4096x4096x4.Transposes [0, 2, 1] S4096x4x4096
  inb_S32x1x4096_S32x1x4096_0_0_0 : ∀ a, (![0, 0, 0] : Fin 3 → Nat) a + S32x1x4096.size a ≤ S32x1x4096.size a
  h_S32x1x4096 : 0 < S32x1x4096.numel
  shapeCasts_S32x1x4096_S32x4096 : S32x1x4096.ShapeCasts S32x4096
  inb_S32x4x4096_S32x4x4096_0_0_0 : ∀ a, (![0, 0, 0] : Fin 3 → Nat) a + S32x4x4096.size a ≤ S32x4x4096.size a
  h_S32x4x4096 : 0 < S32x4x4096.numel
  shapeCasts_S32x4x4096_S32x4x4096 : S32x4x4096.ShapeCasts S32x4x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4x512x4096_S4x512x4096_0_0_0 : ∀ a, (![0, 0, 0] : Fin 3 → Nat) a + S4x512x4096.size a ≤ S4x512x4096.size a
  h_S4x512x4096 : 0 < S4x512x4096.numel
  shapeCasts_S4x512x4096_S4x512x4096 : S4x512x4096.ShapeCasts S4x512x4096
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  slices_S4x512x4096_o0_0_0_S1x512x4096 : S4x512x4096.Slices ![0, 0, 0] S1x512x4096
  shapeCasts_S1x512x4096_S512x4096 : S1x512x4096.ShapeCasts S512x4096
  slices_S4x4096_o0_0_S1x4096 : S4x4096.Slices ![0, 0] S1x4096
  shapeCasts_S1x4096_S4096 : S1x4096.ShapeCasts S4096
  shapeCasts_S4096_S1x4096 : S4096.ShapeCasts S1x4096
  broadcasts_S1x4096_S32x4096 : S1x4096.Broadcasts S32x4096
  slices_S32x4x4096_o0_1_0_S32x1x4096 : S32x4x4096.Slices ![0, 1, 0] S32x1x4096
  inb_S32x4x4096_S32x1x4096_0_0_0 : ∀ a, (![0, 0, 0] : Fin 3 → Nat) a + S32x1x4096.size a ≤ S32x4x4096.size a
  shapeCasts_S32x4096_S32x1x4096 : S32x4096.ShapeCasts S32x1x4096
  slices_S4x512x4096_o1_0_0_S1x512x4096 : S4x512x4096.Slices ![1, 0, 0] S1x512x4096
  slices_S4x4096_o1_0_S1x4096 : S4x4096.Slices ![1, 0] S1x4096
  slices_S32x4x4096_o0_2_0_S32x1x4096 : S32x4x4096.Slices ![0, 2, 0] S32x1x4096
  inb_S32x4x4096_S32x1x4096_0_1_0 : ∀ a, (![0, 1, 0] : Fin 3 → Nat) a + S32x1x4096.size a ≤ S32x4x4096.size a
  slices_S4x512x4096_o2_0_0_S1x512x4096 : S4x512x4096.Slices ![2, 0, 0] S1x512x4096
  slices_S4x4096_o2_0_S1x4096 : S4x4096.Slices ![2, 0] S1x4096
  slices_S32x4x4096_o0_3_0_S32x1x4096 : S32x4x4096.Slices ![0, 3, 0] S32x1x4096
  inb_S32x4x4096_S32x1x4096_0_2_0 : ∀ a, (![0, 2, 0] : Fin 3 → Nat) a + S32x1x4096.size a ≤ S32x4x4096.size a
  slices_S4x512x4096_o3_0_0_S1x512x4096 : S4x512x4096.Slices ![3, 0, 0] S1x512x4096
  slices_S4x4096_o3_0_S1x4096 : S4x4096.Slices ![3, 0] S1x4096
  inb_S32x4x4096_S32x1x4096_0_3_0 : ∀ a, (![0, 3, 0] : Fin 3 → Nat) a + S32x1x4096.size a ≤ S32x4x4096.size a
  transposes_S4096x4x4096_S4096x4096x4_0_2_1 : S4096x4x4096.Transposes [0, 2, 1] S4096x4096x4
  dot_S32x4096_S4096x512_S32x512_1_0_0_1_n_n_wf : DotDims.WF S32x4096 S4096x512 S32x512 [1] [0] [0] [1] [] []
  dot_S32x512_S512x4096_S32x4096_1_0_0_1_n_n_wf : DotDims.WF S32x512 S512x4096 S32x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x4096.size a ≤ S4096x1x4096.size a
  hwx0_0 : ∀ i : grid0.Coords, EltTy.bits .f32 = 32 ∨ (Rect.block (s := S4096x1x4096) S32x1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x4096.size a ≤ S4096x1x4096.size a
  hwx0_1 : ∀ i : grid0.Coords, EltTy.bits .f32 = 32 ∨ (Rect.block (s := S4096x1x4096) S32x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4x4096.size a ≤ S4096x4x4096.size a
  hwx0_2 : ∀ i : grid0.Coords, EltTy.bits .f32 = 32 ∨ (Rect.block (s := S4096x4x4096) S32x4x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x512x4096.size a ≤ S4x512x4096.size a
  hwx0_4 : ∀ i : grid0.Coords, EltTy.bits .bf16 = 32 ∨ (Rect.block (s := S4x512x4096) S4x512x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x4096.size a ≤ S4x4096.size a
  hwx0_5 : ∀ i : grid0.Coords, EltTy.bits .f32 = 32 ∨ (Rect.block (s := S4x4096) S4x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1x4096.size a ≤ S4096x1x4096.size a
  hwx0_6 : ∀ i : grid0.Coords, EltTy.bits .f32 = 32 ∨ (Rect.block (s := S4096x1x4096) S32x1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x4x4096.size a ≤ S4096x4x4096.size a
  hwx0_7 : ∀ i : grid0.Coords, EltTy.bits .f32 = 32 ∨ (Rect.block (s := S4096x4x4096) S32x4x4096.size (cc0_transform_7 i) (hinb0_7 i)).WholeWords (EltTy.packing .f32)

variable [Facts₀]

def dot_S32x4096_S4096x512_S32x512_1_0_0_1_n_n : DotDims S32x4096 S4096x512 S32x512 where
  lhsContracting := [1]
  rhsContracting := [0]
  lhsNonContracting := [0]
  rhsNonContracting := [1]
  lhsBatch := []
  rhsBatch := []
  wf := dot_S32x4096_S4096x512_S32x512_1_0_0_1_n_n_wf
def dot_S32x512_S512x4096_S32x4096_1_0_0_1_n_n : DotDims S32x512 S512x4096 S32x4096 where
  lhsContracting := [1]
  rhsContracting := [0]
  lhsNonContracting := [0]
  rhsNonContracting := [1]
  lhsBatch := []
  rhsBatch := []
  wf := dot_S32x512_S512x4096_S32x4096_1_0_0_1_n_n_wf

abbrev win0_0 : Pipeline.Window sig grid0 :=
  Pipeline.Window.ofSpec (Memref.whole main_arg1) S32x1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S32x4x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x512x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S32x1x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S32x4x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1x4096 : Shape := ⟨3, ![4096, 1, 4096]⟩
abbrev S4096x4096x4 : Shape := ⟨3, ![4096, 4096, 4]⟩
abbrev S4096x512 : Shape := ⟨2, ![4096, 512]⟩
abbrev S512x16384 : Shape := ⟨2, ![512, 16384]⟩
abbrev S16384 : Shape := ⟨1, ![16384]⟩
abbrev S4096x4096 : Shape := ⟨2, ![4096, 4096]⟩
abbrev S_ : Shape := ⟨0, ![]⟩
abbrev S4096x16384 : Shape := ⟨2, ![4096, 16384]⟩
abbrev S1x16384 : Shape := ⟨2, ![1, 16384]⟩
abbrev S4096x4096x1 : Shape := ⟨3, ![4096, 4096, 1]⟩
abbrev S4096x4096x3 : Shape := ⟨3, ![4096, 4096, 3]⟩

abbrev nBuf : Space → Nat
  | .hbm => 38
  | .vmem => 0
  | .smem => 0
  | _ => 0

abbrev bufTy : (tb : Table) → Fin (tcTables nBuf tb) → BufTy
  | .hbm, ⟨0, _⟩ => ⟨S4096x1x4096, .f32⟩
  | .hbm, ⟨1, _⟩ => ⟨S4096x1x4096, .f32⟩
  | .hbm, ⟨2, _⟩ => ⟨S4096x4096x4, .f32⟩
  | .hbm, ⟨3, _⟩ => ⟨S4096x512, .f32⟩
  | .hbm, ⟨4, _⟩ => ⟨S512x16384, .f32⟩
  | .hbm, ⟨5, _⟩ => ⟨S16384, .f32⟩
  | .hbm, ⟨6, _⟩ => ⟨S4096x4096, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x16384, .f32⟩
  | .hbm, ⟨18, _⟩ => ⟨S1x16384, .f32⟩
  | .hbm, ⟨19, _⟩ => ⟨S4096x16384, .f32⟩
  | .hbm, ⟨20, _⟩ => ⟨S4096x16384, .f32⟩
  | .hbm, ⟨21, _⟩ => ⟨S4096x4096x4, .f32⟩
  | .hbm, ⟨22, _⟩ => ⟨S4096x4096x1, .f32⟩
  | .hbm, ⟨23, _⟩ => ⟨S4096x4096x3, .f32⟩
  | .hbm, ⟨24, _⟩ => ⟨S4096x4096x4, .f32⟩
  | .hbm, ⟨25, _⟩ => ⟨S4096x4096x4, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x1x4096, .f32⟩
  | _, _ => ⟨S4096x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v13 : Ref sig .tc := ⟨.hbm, 36, rfl⟩
abbrev main_v14 : Ref sig .tc := ⟨.hbm, 37, rfl⟩

abbrev nD : Nat := 1
abbrev τ : Topo := Topo.v7x

variable {F : FTy → Type} [FloatOps F]

class Facts₀ : Prop where
  shapeCasts_S4096x1x4096_S4096x4096 : S4096x1x4096.ShapeCasts S4096x4096
  bcast_S_S4096x512 : S_.BroadcastsInDim S4096x512 (![] : Fin 0 → Fin S4096x512.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  shapeCasts_S4096x16384_S4096x4096x4 : S4096x16384.ShapeCasts S4096x4096x4
  transposes_S4096x1x4096_S4096x4096x1_0_2_1 : S4096x1x4096.Transposes [0, 2, 1] S4096x4096x1
  slices_S4096x4096x4_S4096x4096x3_0_0_1 : S4096x4096x4.Slices ![0, 0, 1] S4096x4096x3
  concatenates_S4096x4096x3_S4096x4096x1_S4096x4096x4_d2 : Shape.Concatenates [S4096x4096x3, S4096x4096x1] S4096x4096x4 2
  reducesTo_S4096x4096x4_S4096x4096_d2 : S4096x4096x4.ReducesTo [2] S4096x4096
  h_S_ : 0 < S_.numel
  bcast_S_S4096x4096 : S_.BroadcastsInDim S4096x4096 (![] : Fin 0 → Fin S4096x4096.rank)
  bcast_S4096x4096_S4096x1x4096_0_2 : S4096x4096.BroadcastsInDim S4096x1x4096 (![0, 2] : Fin 2 → Fin S4096x1x4096.rank)
  dot_S4096x4096_S4096x512_S4096x512_1_0_0_1_n_n_wf : DotDims.WF S4096x4096 S4096x512 S4096x512 [1] [0] [0] [1] [] []
  dot_S4096x512_S512x16384_S4096x16384_1_0_0_1_n_n_wf : DotDims.WF S4096x512 S512x16384 S4096x16384 [1] [0] [0] [1] [] []

variable [Facts₀]

def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x16384_S4096x16384_1_0_0_1_n_n : DotDims S4096x512 S512x16384 S4096x16384 where
  lhsContracting := [1]
  rhsContracting := [0]
  lhsNonContracting := [0]
  rhsNonContracting := [1]
  lhsBatch := []
  rhsBatch := []
  wf := dot_S4096x512_S512x16384_S4096x16384_1_0_0_1_n_n_wf

class Facts : Prop extends Facts₀ where

variable [Facts]
-- ==== Proof.Spec.lean ====
/-
  The two results as functions of the six argument arrays, entry by entry, on the extended reals.

  A token `b` (one of 4096) carries a generator vector `g[b, ·]` of length 4096. A two-layer perceptron predicts from it a
  filter of four coefficients per channel `d`:  the hidden unit `j` is `silu (∑ k, g[b,k] · w1[k,j])`, and coefficient `w`
  of channel `d` is `∑ j, hidden[j] · w2[j, 4d + w] + b2[4d + w]` (the flat output column `4d + w` is entry `(d, w)` of
  the row-major `[4096, 4]` filter bank). The causal window of channel `d` is the cached window shifted left by one,
  with the new token `x[b, d]` appended: tap `w` is `cache[b, d, w + 1]` for `w < 3` and `x[b, d]` for `w = 3`. The first
  result is `silu (∑ w, tap w · coefficient w)`, the second the shifted window itself.
-/
import Idealize.ShloMosaic.PureOps.Ideal
import Idealize.ShloMosaic.Lib.ValueIdx

noncomputable section

open scoped BigOperators

namespace Cert.Spec

open Idealize.ShloMosaic Idealize.ShloMosaic.ValueIdx

/-- `silu s = s · σ(s)`, with `σ` the logistic function on the extended reals. -/
def silu (s : EReal) : EReal := s * Ideal.logistic s

/-- Hidden unit `j` of the generator: `silu` of the generator vector against column `j` of the first weight matrix. -/
def hidden (g : Fin 4096 → EReal) (w1 : Fin 4096 → Fin 512 → EReal) (j : Fin 512) : EReal :=
  silu (∑ k : Fin 4096, g k * w1 k j)

/-- One predicted filter coefficient: the hidden vector against one column of the second weight matrix, plus its bias. -/
def coeff (h : Fin 512 → EReal) (w2 : Fin 512 → EReal) (b2 : EReal) : EReal :=
  (∑ j : Fin 512, h j * w2 j) + b2

/-- Tap `w` of the shifted window: the cached entry one to the right, and the new token in the last place. -/
def tap (cacheRow : Fin 4 → EReal) (xv : EReal) (w : Fin 4) : EReal :=
  if h : w.val < 3 then cacheRow ⟨w.val + 1, by omega⟩ else xv

theorem tap_zero (cacheRow : Fin 4 → EReal) (xv : EReal) : tap cacheRow xv 0 = cacheRow 1 := rfl
theorem tap_one (cacheRow : Fin 4 → EReal) (xv : EReal) : tap cacheRow xv 1 = cacheRow 2 := rfl
theorem tap_two (cacheRow : Fin 4 → EReal) (xv : EReal) : tap cacheRow xv 2 = cacheRow 3 := rfl
theorem tap_three (cacheRow : Fin 4 → EReal) (xv : EReal) : tap cacheRow xv 3 = xv := rfl

/-- The convolution output of one token and channel, from the token's generator vector `g`, the weights, the four
    columns `w2 w`, `b2 w` of the channel's filter, the channel's cached window and its new token. -/
def outAt (g : Fin 4096 → EReal) (w1 : Fin 4096 → Fin 512 → EReal) (w2 : Fin 4 → Fin 512 → EReal) (b2 : Fin 4 → EReal)
    (cacheRow : Fin 4 → EReal) (xv : EReal) : EReal :=
  silu (∑ w : Fin 4, tap cacheRow xv w * coeff (hidden g w1) (w2 w) (b2 w))

/-- Flat column `4d + w` of the second layer's output: entry `(d, w)` of the row-major `[4096, 4]` filter bank. -/
def col (d : Fin 4096) (w : Fin 4) : Fin 16384 := ⟨d.val * 4 + w.val, by omega⟩

/-- The first result at token `b`, channel `d`, from the arguments `x`, `generator_input`, `cache`, `w1`, `w2`, `b2`. -/
def outVal (x0 x1 : (⟨3, ![4096, 1, 4096]⟩ : Shape).Idx → EReal) (x2 : (⟨3, ![4096, 4096, 4]⟩ : Shape).Idx → EReal)
    (x3 : (⟨2, ![4096, 512]⟩ : Shape).Idx → EReal) (x4 : (⟨2, ![512, 16384]⟩ : Shape).Idx → EReal)
    (x5 : (⟨1, ![16384]⟩ : Shape).Idx → EReal) (b d : Fin 4096) : EReal :=
  outAt (fun k => x1 (ix3 b (0 : Fin 1) k)) (fun k j => x3 (ix2 k j)) (fun w j => x4 (ix2 j (col d w)))
    (fun w => x5 (ix1 (col d w))) (fun w => x2 (ix3 b d w)) (x0 (ix3 b (0 : Fin 1) d))

/-- The second result (the shifted window) at token `b`, channel `d`, tap `w`. -/
def cacheVal (x0 : (⟨3, ![4096, 1, 4096]⟩ : Shape).Idx → EReal) (x2 : (⟨3, ![4096, 4096, 4]⟩ : Shape).Idx → EReal)
    (b d : Fin 4096) (w : Fin 4) : EReal :=
  tap (fun w' => x2 (ix3 b d w')) (x0 (ix3 b (0 : Fin 1) d)) w

/-- The first result as an array `[4096, 1, 4096]`. -/
def Gout (x0 x1 : (⟨3, ![4096, 1, 4096]⟩ : Shape).Idx → EReal) (x2 : (⟨3, ![4096, 4096, 4]⟩ : Shape).Idx → EReal)
    (x3 : (⟨2, ![4096, 512]⟩ : Shape).Idx → EReal) (x4 : (⟨2, ![512, 16384]⟩ : Shape).Idx → EReal)
    (x5 : (⟨1, ![16384]⟩ : Shape).Idx → EReal) : (⟨3, ![4096, 1, 4096]⟩ : Shape).Idx → EReal :=
  fun i => outVal x0 x1 x2 x3 x4 x5 ⟨(i 0).val, (i 0).isLt⟩ ⟨(i 2).val, (i 2).isLt⟩

/-- The second result as an array `[4096, 4096, 4]` (token, channel, tap). -/
def Gcache (x0 : (⟨3, ![4096, 1, 4096]⟩ : Shape).Idx → EReal) (x2 : (⟨3, ![4096, 4096, 4]⟩ : Shape).Idx → EReal) :
    (⟨3, ![4096, 4096, 4]⟩ : Shape).Idx → EReal :=
  fun i => cacheVal x0 x2 ⟨(i 0).val, (i 0).isLt⟩ ⟨(i 1).val, (i 1).isLt⟩ ⟨(i 2).val, (i 2).isLt⟩

/-- The same window with the tap axis in the middle, `[4096, 4, 4096]` (token, tap, channel). -/
def GcacheT (x0 : (⟨3, ![4096, 1, 4096]⟩ : Shape).Idx → EReal) (x2 : (⟨3, ![4096, 4096, 4]⟩ : Shape).Idx → EReal) :
    (⟨3, ![4096, 4, 4096]⟩ : Shape).Idx → EReal :=
  fun i => cacheVal x0 x2 ⟨(i 0).val, (i 0).isLt⟩ ⟨(i 2).val, (i 2).isLt⟩ ⟨(i 1).val, (i 1).isLt⟩

theorem Gout_ix3 (x0 x1 : (⟨3, ![4096, 1, 4096]⟩ : Shape).Idx → EReal) (x2 : (⟨3, ![4096, 4096, 4]⟩ : Shape).Idx → EReal)
    (x3 : (⟨2, ![4096, 512]⟩ : Shape).Idx → EReal) (x4 : (⟨2, ![512, 16384]⟩ : Shape).Idx → EReal)
    (x5 : (⟨1, ![16384]⟩ : Shape).Idx → EReal) (b : Fin 4096) (z : Fin 1) (d : Fin 4096) :
    Gout x0 x1 x2 x3 x4 x5 (ix3 b z d) = outVal x0 x1 x2 x3 x4 x5 b d := rfl

theorem Gcache_ix3 (x0 : (⟨3, ![4096, 1, 4096]⟩ : Shape).Idx → EReal) (x2 : (⟨3, ![4096, 4096, 4]⟩ : Shape).Idx → EReal)
    (b d : Fin 4096) (w : Fin 4) : Gcache x0 x2 (ix3 b d w) = cacheVal x0 x2 b d w := rfl

theorem GcacheT_ix3 (x0 : (⟨3, ![4096, 1, 4096]⟩ : Shape).Idx → EReal) (x2 : (⟨3, ![4096, 4096, 4]⟩ : Shape).Idx → EReal)
    (b : Fin 4096) (w : Fin 4) (d : Fin 4096) : GcacheT x0 x2 (ix3 b w d) = cacheVal x0 x2 b d w := rfl

end Cert.Spec

end
-- ==== Proof.RefSide.lean ====
/-
  The reference's two results, read entry by entry, are the specification's arrays.

  Each stage of the reference is read at explicit coordinates: the shifted window (the cached taps one to the right,
  the new token in the last place), the generator vector, the first layer and its `silu`, the second layer with its
  bias at the flat column `4d + w`, the sum over the four taps, and the final `silu`.
-/
import proofs.«147391_j74431783239845_2_alg».proof.Proof.Gen.ReferenceIdeal.Read
import proofs.«147391_j74431783239845_2_alg».proof.Proof.Spec
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-- The shifted window at token `b`, channel `d`, tap `w`. -/
theorem window_ix3 (x0 : (⟨S4096x1x4096, .f32⟩ : BufTy).Contents (Elt Ideal)) (x2 : (⟨S4096x4096x4, .f32⟩ : BufTy).Contents (Elt Ideal))
    (b d : Fin 4096) (w : Fin 4) :
    Read.val_main_v10 (F := Ideal) x0 x2 (ix3 b d w) = Cert.Spec.cacheVal x0 x2 b d w := by
  unfold Read.val_main_v10 Cert.Spec.cacheVal Cert.Spec.tap
  by_cases hw : w.val < 3
  · rw [dif_pos hw]
    refine (concatenate_pair_apply_left (t := S4096x4096x4) (s₁ := S4096x4096x3) (s₂ := S4096x4096x1) (2 : Fin 3) _ _ _ (ix3 b d w) rfl (ix3 b d (⟨w.val, hw⟩ : Fin 3)) ?_).trans ?_
    · intro a
      match a with
      | ⟨0, _⟩ => rfl
      | ⟨1, _⟩ => rfl
      | ⟨2, _⟩ => rfl
    · rw [Read.val_main_v9_apply]
      refine congrArg x2 (funext fun a => Fin.ext ?_)
      match a with
      | ⟨0, _⟩ => rfl
      | ⟨1, _⟩ => rfl
      | ⟨2, _⟩ => exact Nat.add_comm 1 w.val
  · rw [dif_neg hw]
    have hw3 : w.val = 3 := by have := w.isLt; omega
    refine (concatenate_pair_apply_right (t := S4096x4096x4) (s₁ := S4096x4096x3) (s₂ := S4096x4096x1) (2 : Fin 3) _ _ _ (ix3 b d w) rfl rfl (ix3 b d (0 : Fin 1)) ?_ ?_).trans ?_
    · intro a ha
      match a with
      | ⟨0, _⟩ => rfl
      | ⟨1, _⟩ => rfl
      | ⟨2, _⟩ => exact absurd rfl ha
    · show 0 + 3 = w.val
      omega
    · rw [Read.val_main_v8_apply]
      refine congrArg x0 (funext fun a => Fin.ext ?_)
      match a with
      | ⟨0, _⟩ => rfl
      | ⟨1, _⟩ => rfl
      | ⟨2, _⟩ => rfl

/-- The reference's shifted window `concatenate (cache[:, :, 1:], xᵀ)` is the specification's second array. -/
theorem ref_cache (x0 : (⟨S4096x1x4096, .f32⟩ : BufTy).Contents (Elt Ideal)) (x2 : (⟨S4096x4096x4, .f32⟩ : BufTy).Contents (Elt Ideal)) :
    Read.val_main_v10 (F := Ideal) x0 x2 = Cert.Spec.Gcache x0 x2 := by
  funext i
  obtain ⟨b, d, w, rfl⟩ : ∃ (b : Fin 4096) (d : Fin 4096) (w : Fin 4), i = ix3 b d w := ⟨i 0, i 1, i 2, eq_ix3 i⟩
  rw [Cert.Spec.Gcache_ix3]
  exact window_ix3 x0 x2 b d w

/-- The generator vector of token `b`, flattened from `[4096, 1, 4096]` to `[4096, 4096]`. -/
theorem generator_ix2 (x1 : (⟨S4096x1x4096, .f32⟩ : BufTy).Contents (Elt Ideal)) (b k : Fin 4096) :
    Read.val_main_v0 (F := Ideal) x1 (ix2 b k) = x1 (ix3 b (0 : Fin 1) k) := by
  rw [Read.val_main_v0_apply]
  refine congrArg x1 (funext fun a => Fin.ext ?_)
  have hb := b.isLt
  have hk := k.isLt
  match a with
  | ⟨0, _⟩ => show (b.val * 4096 + k.val) / 4096 = b.val; omega
  | ⟨1, _⟩ => rfl
  | ⟨2, _⟩ => show (b.val * 4096 + k.val) % 4096 = k.val; omega

/-- The first layer before its activation: the generator vector against column `j` of the first weight matrix. -/
theorem preact_ix2 (x1 : (⟨S4096x1x4096, .f32⟩ : BufTy).Contents (Elt Ideal)) (x3 : (⟨S4096x512, .f32⟩ : BufTy).Contents (Elt Ideal))
    (b : Fin 4096) (j : Fin 512) :
    Read.val_main_v1 (F := Ideal) x1 x3 (ix2 b j) = ∑ k : Fin 4096, x1 (ix3 b (0 : Fin 1) k) * x3 (ix2 k j) := by
  rw [Read.val_main_v1_apply]
  refine Finset.sum_congr rfl fun k _ => ?_
  have el : Read.lidx_main_v1 (ix2 b j) k = ix2 b k := funext fun a => Fin.ext (by
    match a with
    | ⟨0, _⟩ => rfl
    | ⟨1, _⟩ => rfl)
  have er : Read.ridx_main_v1 (ix2 b j) k = ix2 k j := funext fun a => Fin.ext (by
    match a with
    | ⟨0, _⟩ => rfl
    | ⟨1, _⟩ => rfl)
  rw [el, er, generator_ix2]

/-- The reference spells `silu s` as `s · (1 / (1 + exp (-s)))` with the constant one. -/
theorem silu_spelt (s : EReal) :
    s * Ideal.div (Ideal.ofBits .f32 0x3F800000#32) (Ideal.ofBits .f32 0x3F800000#32 + Ideal.exp (-s)) = Cert.Spec.silu s := by
  rw [Ideal.ofBits_one_f32]
  rfl

/-- Hidden unit `j` of token `b`. -/
theorem hidden_ix2 (x1 : (⟨S4096x1x4096, .f32⟩ : BufTy).Contents (Elt Ideal)) (x3 : (⟨S4096x512, .f32⟩ : BufTy).Contents (Elt Ideal))
    (b : Fin 4096) (j : Fin 512) :
    Read.val_main_v2 (F := Ideal) x1 x3 (ix2 b j)
      = Cert.Spec.hidden (fun k => x1 (ix3 b (0 : Fin 1) k)) (fun k j => x3 (ix2 k j)) j := by
  rw [Read.val_main_v2_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, preact_ix2]
  exact silu_spelt _

/-- The second layer before its bias: the hidden vector of token `b` against column `c` of the second weight matrix. -/
theorem second_layer_ix2 (x1 : (⟨S4096x1x4096, .f32⟩ : BufTy).Contents (Elt Ideal)) (x3 : (⟨S4096x512, .f32⟩ : BufTy).Contents (Elt Ideal))
    (x4 : (⟨S512x16384, .f32⟩ : BufTy).Contents (Elt Ideal)) (b : Fin 4096) (c : Fin 16384) :
    Read.val_main_v3 (F := Ideal) x1 x3 x4 (ix2 b c)
      = ∑ j : Fin 512, Cert.Spec.hidden (fun k => x1 (ix3 b (0 : Fin 1) k)) (fun k j => x3 (ix2 k j)) j * x4 (ix2 j c) := by
  rw [Read.val_main_v3_apply]
  refine Finset.sum_congr rfl fun j _ => ?_
  have el : Read.lidx_main_v3 (ix2 b c) j = ix2 b j := funext fun a => Fin.ext (by
    match a with
    | ⟨0, _⟩ => rfl
    | ⟨1, _⟩ => rfl)
  have er : Read.ridx_main_v3 (ix2 b c) j = ix2 j c := funext fun a => Fin.ext (by
    match a with
    | ⟨0, _⟩ => rfl
    | ⟨1, _⟩ => rfl)
  rw [el, er, hidden_ix2]

/-- The bias broadcast over the tokens reads the bias at its column. -/
theorem bias_ix2 (x5 : (⟨S16384, .f32⟩ : BufTy).Contents (Elt Ideal)) (b : Fin 4096) (c : Fin 16384) :
    Read.val_main_v5 (F := Ideal) x5 (ix2 b c) = x5 (ix1 c) := by
  rw [Read.val_main_v5_apply, Read.val_main_v4_apply]
  refine congrArg x5 (funext fun a => Fin.ext ?_)
  match a with
  | ⟨0, _⟩ => rfl

/-- Coefficient `w` of channel `d` for token `b`: the second layer's flat column `4d + w`. -/
theorem coeff_ix3 (x1 : (⟨S4096x1x4096, .f32⟩ : BufTy).Contents (Elt Ideal)) (x3 : (⟨S4096x512, .f32⟩ : BufTy).Contents (Elt Ideal))
    (x4 : (⟨S512x16384, .f32⟩ : BufTy).Contents (Elt Ideal)) (x5 : (⟨S16384, .f32⟩ : BufTy).Contents (Elt Ideal))
    (b d : Fin 4096) (w : Fin 4) :
    Read.val_main_v7 (F := Ideal) x1 x3 x4 x5 (ix3 b d w)
      = Cert.Spec.coeff (Cert.Spec.hidden (fun k => x1 (ix3 b (0 : Fin 1) k)) (fun k j => x3 (ix2 k j)))
          (fun j => x4 (ix2 j (Cert.Spec.col d w))) (x5 (ix1 (Cert.Spec.col d w))) := by
  have ei : Read.idx_main_v7 (ix3 b d w) = ix2 b (Cert.Spec.col d w) := funext fun a => Fin.ext (by
    have hb := b.isLt
    have hd := d.isLt
    have hw := w.isLt
    match a with
    | ⟨0, _⟩ => show ((b.val * 4096 + d.val) * 4 + w.val) / 16384 = b.val; omega
    | ⟨1, _⟩ => show ((b.val * 4096 + d.val) * 4 + w.val) % 16384 = d.val * 4 + w.val; omega)
  rw [Read.val_main_v7_apply, ei, Read.val_main_v6_apply, second_layer_ix2, bias_ix2]
  rfl

/-- The sum over the four taps, for token `b` and channel `d`. -/
theorem taps_ix2 (x0 x1 : (⟨S4096x1x4096, .f32⟩ : BufTy).Contents (Elt Ideal)) (x2 : (⟨S4096x4096x4, .f32⟩ : BufTy).Contents (Elt Ideal))
    (x3 : (⟨S4096x512, .f32⟩ : BufTy).Contents (Elt Ideal)) (x4 : (⟨S512x16384, .f32⟩ : BufTy).Contents (Elt Ideal))
    (x5 : (⟨S16384, .f32⟩ : BufTy).Contents (Elt Ideal)) (b d : Fin 4096) :
    Read.val_main_v12 (F := Ideal) x0 x1 x2 x3 x4 x5 (ix2 b d)
      = ∑ w : Fin 4, Cert.Spec.cacheVal x0 x2 b d w
          * Cert.Spec.coeff (Cert.Spec.hidden (fun k => x1 (ix3 b (0 : Fin 1) k)) (fun k j => x3 (ix2 k j)))
              (fun j => x4 (ix2 j (Cert.Spec.col d w))) (x5 (ix1 (Cert.Spec.col d w))) := by
  rw [Read.val_main_v12_apply, Read.val_main_cst_apply, Ideal.ofBits_def, Ideal.ofBits_zero_f32, zero_add]
  refine Finset.sum_congr rfl fun w _ => ?_
  have ei : Read.idx_main_v12 (ix2 b d) w = ix3 b d w := funext fun a => Fin.ext (by
    match a with
    | ⟨0, _⟩ => rfl
    | ⟨1, _⟩ => rfl
    | ⟨2, _⟩ => rfl)
  rw [ei, Read.val_main_v11_apply, window_ix3, coeff_ix3]
  rfl

/-- The reference's first result at token `b`, channel `d`. -/
theorem out_ix3 (x0 x1 : (⟨S4096x1x4096, .f32⟩ : BufTy).Contents (Elt Ideal)) (x2 : (⟨S4096x4096x4, .f32⟩ : BufTy).Contents (Elt Ideal))
    (x3 : (⟨S4096x512, .f32⟩ : BufTy).Contents (Elt Ideal)) (x4 : (⟨S512x16384, .f32⟩ : BufTy).Contents (Elt Ideal))
    (x5 : (⟨S16384, .f32⟩ : BufTy).Contents (Elt Ideal)) (b : Fin 4096) (z : Fin 1) (d : Fin 4096) :
    Read.val_main_v14 (F := Ideal) x0 x1 x2 x3 x4 x5 (ix3 b z d) = Cert.Spec.outVal x0 x1 x2 x3 x4 x5 b d := by
  have ei : Read.idx_main_v14 (ix3 b z d) = ix2 b d := funext fun a => Fin.ext (by
    match a with
    | ⟨0, _⟩ => rfl
    | ⟨1, _⟩ => rfl)
  rw [Read.val_main_v14_apply, ei, Read.val_main_v13_apply, Read.val_main_call1_v5_apply, Read.val_main_call1_v4_apply,
    Read.val_main_call1_cst_0_apply, Read.val_main_call1_v3_apply, Read.val_main_call1_v2_apply, Read.val_main_call1_cst_apply,
    Read.val_main_call1_v1_apply, Read.val_main_call1_v0_apply, taps_ix2]
  exact silu_spelt _

/-- The reference's first result is the specification's first array. -/
theorem ref_out (x0 x1 : (⟨S4096x1x4096, .f32⟩ : BufTy).Contents (Elt Ideal)) (x2 : (⟨S4096x4096x4, .f32⟩ : BufTy).Contents (Elt Ideal))
    (x3 : (⟨S4096x512, .f32⟩ : BufTy).Contents (Elt Ideal)) (x4 : (⟨S512x16384, .f32⟩ : BufTy).Contents (Elt Ideal))
    (x5 : (⟨S16384, .f32⟩ : BufTy).Contents (Elt Ideal)) :
    Read.val_main_v14 (F := Ideal) x0 x1 x2 x3 x4 x5 = Cert.Spec.Gout x0 x1 x2 x3 x4 x5 := by
  funext i
  obtain ⟨b, z, d, rfl⟩ : ∃ (b : Fin 4096) (z : Fin 1) (d : Fin 4096), i = ix3 b z d := ⟨i 0, i 1, i 2, eq_ix3 i⟩
  rw [Cert.Spec.Gout_ix3]
  exact out_ix3 x0 x1 x2 x3 x4 x5 b z d

end Cert.ReferenceIdeal.RefValue

end
-- ==== Proof.KernelEntry.lean ====
/-
  The arrays the kernel's windows read, as the region finds them: the host lays the weights and the cache out for the
  kernel before the call, and each laid-out array, read at an entry, is an entry of an argument.

    cache_t[b, w, d]  = cache[b, d, w]                 (the two trailing axes swapped)
    w1' [k, j]        = w1[k, j]                       (a change of float format: the identity on extended reals)
    w2r [w, j, d]     = w2[j, 4d + w]                  (w2 as [512, 4096, 4], then the tap axis moved to the front)
    b2r [w, d]        = b2[4d + w]                     (b2 as [4096, 4], transposed)
-/
import proofs.«147391_j74431783239845_2_alg».proof.Proof.Gen.KernelIdeal.Frame
import proofs.«147391_j74431783239845_2_alg».proof.Proof.Spec
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The cache with its two trailing axes swapped, as a term of the argument. -/
theorem cacheT_eq (c : Dev nD) :
    (V m c main_v6 : S4096x4x4096.Idx → EReal)
      = transpose S4096x4x4096 [0, 2, 1] (m ((c : Thread nD τ).loc main_arg2)) transposes_S4096x4096x4_S4096x4x4096_0_2_1 := by
  show StableHlo.after hostOps0 (fun b => m (c, b)) (Proc.devRef .tc main_v6) = _
  after_results

/-- The first weight matrix in the kernel's float format. -/
theorem w1_eq (c : Dev nD) :
    (V m c main_v0 : S4096x512.Idx → EReal)
      = (truncf .bf16 (m ((c : Thread nD τ).loc main_arg3)) bitsLt_bf16_f32 : FVec Ideal S4096x512 .bf16) := by
  show StableHlo.after hostOps0 (fun b => m (c, b)) (Proc.devRef .tc main_v0) = _
  after_results

/-- The second weight matrix, one `[512, 4096]` matrix per tap. -/
theorem w2r_eq (c : Dev nD) :
    (V m c main_v3 : S4x512x4096.Idx → EReal)
      = (truncf .bf16 (transpose S4x512x4096 [2, 0, 1] (shapeCast S512x4096x4 (m ((c : Thread nD τ).loc main_arg4)) shapeCasts_S512x16384_S512x4096x4)
          transposes_S512x4096x4_S4x512x4096_2_0_1) bitsLt_bf16_f32 : FVec Ideal S4x512x4096 .bf16) := by
  show StableHlo.after hostOps0 (fun b => m (c, b)) (Proc.devRef .tc main_v3) = _
  after_results
  rfl

/-- The bias, one row of 4096 per tap. -/
theorem b2r_eq (c : Dev nD) :
    (V m c main_v5 : S4x4096.Idx → EReal)
      = transpose S4x4096 [1, 0] (shapeCast S4096x4 (m ((c : Thread nD τ).loc main_arg5)) shapeCasts_S16384_S4096x4) transposes_S4096x4_S4x4096_1_0 := by
  show StableHlo.after hostOps0 (fun b => m (c, b)) (Proc.devRef .tc main_v5) = _
  after_results
  rfl

/-! ## Read at an entry -/

theorem cacheT_apply (c : Dev nD) (b : Fin 4096) (w : Fin 4) (d : Fin 4096) :
    (V m c main_v6 : S4096x4x4096.Idx → EReal) (ix3 b w d) = m ((c : Thread nD τ).loc main_arg2) (ix3 b d w) := by
  rw [cacheT_eq]
  exact transpose_apply [0, 2, 1] _ transposes_S4096x4096x4_S4096x4x4096_0_2_1 (ix3 b w d) (ix3 b d w) (fun a => match a with
    | ⟨0, _⟩ => rfl
    | ⟨1, _⟩ => rfl
    | ⟨2, _⟩ => rfl)

theorem w1_apply (c : Dev nD) (k : Fin 4096) (j : Fin 512) :
    (V m c main_v0 : S4096x512.Idx → EReal) (ix2 k j) = m ((c : Thread nD τ).loc main_arg3) (ix2 k j) := by
  rw [w1_eq]; rfl

theorem w2r_apply (c : Dev nD) (w : Fin 4) (j : Fin 512) (d : Fin 4096) :
    (V m c main_v3 : S4x512x4096.Idx → EReal) (ix3 w j d) = m ((c : Thread nD τ).loc main_arg4) (ix2 j (Cert.Spec.col d w)) := by
  rw [w2r_eq, truncf_apply]
  refine (transpose_apply [2, 0, 1] _ transposes_S512x4096x4_S4x512x4096_2_0_1 (ix3 w j d) (ix3 j d w) (fun a => match a with
    | ⟨0, _⟩ => rfl
    | ⟨1, _⟩ => rfl
    | ⟨2, _⟩ => rfl)).trans ?_
  exact shapeCast_apply _ shapeCasts_S512x16384_S512x4096x4 (ix3 j d w) (ix2 j (Cert.Spec.col d w))
    (by rewrite [Shape.rowMajor_val_two, Shape.rowMajor_val_three]
        show j.val * 16384 + (d.val * 4 + w.val) = (j.val * 4096 + d.val) * 4 + w.val
        omega)

theorem b2r_apply (c : Dev nD) (w : Fin 4) (d : Fin 4096) :
    (V m c main_v5 : S4x4096.Idx → EReal) (ix2 w d) = m ((c : Thread nD τ).loc main_arg5) (ix1 (Cert.Spec.col d w)) := by
  rw [b2r_eq]
  refine (transpose_apply [1, 0] _ transposes_S4096x4_S4x4096_1_0 (ix2 w d) (ix2 d w) (fun a => match a with
    | ⟨0, _⟩ => rfl
    | ⟨1, _⟩ => rfl)).trans ?_
  exact shapeCast_apply _ shapeCasts_S16384_S4096x4 (ix2 d w) (ix1 (Cert.Spec.col d w))
    (by rewrite [Shape.rowMajor_val_one, Shape.rowMajor_val_two]
        show d.val * 4 + w.val = d.val * 4 + w.val
        rfl)

end Cert.KernelIdeal.Entry

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.KernelBody.lean ====
/-
  What the kernel body leaves in its two output blocks, read entry by entry, from the six input blocks.
-/
import proofs.«147391_j74431783239845_2_alg».proof.Proof.Gen.KernelIdeal.Frame
import proofs.«147391_j74431783239845_2_alg».proof.Proof.Spec
import proofs.«147391_j74431783239845_2_alg».proof.Proof.LibMatmulIdx
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

section Layout
variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A rank-3 array cut along axis 0 from `o` reads, at `(j, c, e)`, the source at `(k, c, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (c : Fin n1) (e : Fin n2) (k : Fin n0) (hk : k.val = o + j.val) :
    extractStridedSlice ⟨3, ![m, n1, n2]⟩ ![o, 0, 0] X h (ix3 j c e) = X (ix3 k c e) :=
  extractStridedSlice_apply _ _ _ _ _ (fun ax => by
    match ax with
    | ⟨0, _⟩ => exact hk
    | ⟨1, _⟩ => exact (Nat.zero_add _).symm
    | ⟨2, _⟩ => exact (Nat.zero_add _).symm)

end Layout

/-- `x · σ(x)` on a vector, read at an index. -/
theorem silu_apply {s : Shape} (v : FVec Ideal s .f32) (i : s.Idx) :
    mulf v (logistic v) i = Cert.Spec.silu (v i) := rfl

/-- The first product: the token's generator vector against column `j` of the first weight matrix. -/
theorem matmul1_apply (X0 : FVec Ideal S32x1x4096 .f32) (X3 : FVec Ideal S4096x512 .bf16) (r : Fin 32) (j : Fin 512) :
    matmul dot_S32x4096_S4096x512_S32x512_1_0_0_1_n_n none
        (truncf FTy.bf16 (shapeCast S32x4096 X0 shapeCasts_S32x1x4096_S32x4096) bitsLt_bf16_f32)
        (shapeCast S4096x512 X3 shapeCasts_S4096x512_S4096x512) (constant (F := Ideal) S32x512 FTy.f32 0x00000000#32) (ix2 r j)
      = ∑ k : Fin 4096, X0 (ix3 r (0 : Fin 1) k) * X3 (ix2 k j) := by
  refine (Cert.MatmulIdx.matmul_plain_zero_apply (M := 32) (K := 4096) (N := 512) none _ _ r j).trans ?_
  refine Finset.sum_congr rfl fun k _ => ?_
  rw [truncf_apply, shapeCast_a1b_ab_apply, shapeCast_self]

/-- The hidden layer at token `r`, unit `j`. -/
theorem hidden_apply (X0 : FVec Ideal S32x1x4096 .f32) (X3 : FVec Ideal S4096x512 .bf16) (r : Fin 32) (j : Fin 512) :
    Gen.k0_pay6 (F := Ideal) X0 X3 (ix2 r j)
      = Cert.Spec.hidden (fun k => X0 (ix3 r (0 : Fin 1) k)) (fun k j => X3 (ix2 k j)) j := by
  unfold Gen.k0_pay6 Cert.Spec.hidden
  refine (silu_apply _ _).trans ?_
  rw [matmul1_apply]

/-- A row of hidden units against a second-layer weight matrix, plus the broadcast bias row. -/
theorem coeff_apply (H : FVec Ideal S32x512 .bf16) (W : FVec Ideal S512x4096 .bf16) (B : FVec Ideal S1x4096 .f32)
    (r : Fin 32) (q : Fin 4096) :
    addf (matmul dot_S32x512_S512x4096_S32x4096_1_0_0_1_n_n none H W (constant (F := Ideal) S32x4096 .f32 0x00000000#32))
        (broadcastTo S32x4096 (shapeCast S1x4096 (shapeCast S4096 B shapeCasts_S1x4096_S4096) shapeCasts_S4096_S1x4096)
          broadcasts_S1x4096_S32x4096) (ix2 r q)
      = Cert.Spec.coeff (fun j => H (ix2 r j)) (fun j => W (ix2 j q)) (B (ix2 (0 : Fin 1) q)) := by
  unfold Cert.Spec.coeff
  rw [addf_apply]
  congr 1
  · exact Cert.MatmulIdx.matmul_plain_zero_apply (M := 32) (K := 512) (N := 4096) none H W r q
  · rw [broadcastTo_1b_ab_apply, shapeCast_a_1a_apply, shapeCast_1a_a_apply]

/-- Slice `w` of the per-tap weights, as a matrix. -/
theorem w2_slice_apply (X4 : FVec Ideal S4x512x4096 .bf16) (o : Nat) (h4 : S4x512x4096.Slices ![o, 0, 0] S1x512x4096)
    (w : Fin 4) (hw : w.val = o) (j : Fin 512) (q : Fin 4096) :
    shapeCast S512x4096 (extractStridedSlice S1x512x4096 ![o, 0, 0] X4 h4) shapeCasts_S1x512x4096_S512x4096 (ix2 j q)
      = X4 (ix3 w j q) := by
  rw [shapeCast_1ab_ab_apply]
  exact slice3_axis0_apply o X4 h4 0 j q w (by rw [hw]; rfl)

/-- Row `w` of the per-tap bias. -/
theorem b2_slice_apply (X5 : FVec Ideal S4x4096 .f32) (o : Nat) (h5 : S4x4096.Slices ![o, 0] S1x4096)
    (w : Fin 4) (hw : w.val = o) (q : Fin 4096) :
    extractStridedSlice S1x4096 ![o, 0] X5 h5 (ix2 (0 : Fin 1) q) = X5 (ix2 w q) :=
  slice2_axis0_apply o X5 h5 0 q w (by rw [hw]; rfl)

/-- Tap `w` of the cached window, as a matrix over tokens and channels. -/
theorem tap_slice_apply (X2 : FVec Ideal S32x4x4096 .f32) (o : Nat) (h : S32x4x4096.Slices ![0, o, 0] S32x1x4096)
    (w : Fin 4) (hw : w.val = o) (r : Fin 32) (q : Fin 4096) :
    shapeCast S32x4096 (extractStridedSlice S32x1x4096 ![0, o, 0] X2 h) shapeCasts_S32x1x4096_S32x4096 (ix2 r q)
      = X2 (ix3 r w q) := by
  rw [shapeCast_a1b_ab_apply]
  exact slice3_axis1_apply o X2 h r 0 q w (by rw [hw]; rfl)

/-- The zero word of the accumulator's first summand is the extended real `0`. -/
theorem zero_word : FloatOps.ofBits (F := Ideal) FTy.f32 0x00000000#32 = (0 : EReal) := Ideal.ofBits_zero_f32

/-- The first term of the accumulation: zero plus tap 0 of the window times coefficient 0. -/
theorem pay8_apply (X0 : FVec Ideal S32x1x4096 .f32) (X2 : FVec Ideal S32x4x4096 .f32) (X3 : FVec Ideal S4096x512 .bf16)
    (X4 : FVec Ideal S4x512x4096 .bf16) (X5 : FVec Ideal S4x4096 .f32) (r : Fin 32) (q : Fin 4096) :
    Gen.k0_pay8 (F := Ideal) X0 X2 X3 X4 X5 (ix2 r q)
      = 0 + X2 (ix3 r 1 q) * Cert.Spec.coeff (fun j => Gen.k0_pay6 (F := Ideal) X0 X3 (ix2 r j)) (fun j => X4 (ix3 0 j q)) (X5 (ix2 0 q)) := by
  dsimp only [Gen.k0_pay8, Gen.k0_pay7, Gen.k0_pay3, Gen.k0_pay4, Gen.k0_pay5]
  rw [shapeCast_self, shapeCast_self, shapeCast_self, addf_apply, mulf_apply, broadcast_apply, zero_word, coeff_apply,
    tap_slice_apply X2 1 _ 1 rfl]
  simp only [w2_slice_apply X4 0 _ 0 rfl, b2_slice_apply X5 0 _ 0 rfl]

/-- The output row: `silu` of the accumulation continued with taps 1, 2 of the window and the new token. -/
theorem pay17_apply (v3 : FVec Ideal S32x4096 .f32) (v5 : FVec Ideal S32x4x4096 .f32) (v9 : FVec Ideal S4x512x4096 .bf16)
    (v11 : FVec Ideal S4x4096 .f32) (v16 : FVec Ideal S32x512 .bf16) (v29 : FVec Ideal S32x4096 .f32)
    (v34 : FVec Ideal S512x4096 .bf16) (v35 : FVec Ideal S1x4096 .f32) (r : Fin 32) (q : Fin 4096) :
    Gen.k0_pay17 (F := Ideal) v3 v5 v9 v11 v16 v29 v34 v35 (ix2 r q)
      = Cert.Spec.silu (v29 (ix2 r q)
          + v5 (ix3 r 2 q) * Cert.Spec.coeff (fun j => v16 (ix2 r j)) (fun j => v34 (ix2 j q)) (v35 (ix2 (0 : Fin 1) q))
          + v5 (ix3 r 3 q) * Cert.Spec.coeff (fun j => v16 (ix2 r j)) (fun j => v9 (ix3 2 j q)) (v11 (ix2 2 q))
          + v3 (ix2 r q) * Cert.Spec.coeff (fun j => v16 (ix2 r j)) (fun j => v9 (ix3 3 j q)) (v11 (ix2 3 q))) := by
  dsimp only [Gen.k0_pay17, Gen.k0_pay12, Gen.k0_pay14]
  refine (silu_apply _ _).trans ?_
  rw [addf_apply, addf_apply, addf_apply, mulf_apply, mulf_apply, mulf_apply, coeff_apply, coeff_apply, coeff_apply,
    tap_slice_apply v5 2 _ 2 rfl, tap_slice_apply v5 3 _ 3 rfl]
  simp only [w2_slice_apply v9 2 _ 2 rfl, b2_slice_apply v11 2 _ 2 rfl, w2_slice_apply v9 3 _ 3 rfl, b2_slice_apply v11 3 _ 3 rfl]

/-- Row `r`, channel `q` of the first output block: the convolution output of the block's token `r`. -/
theorem out6_apply (X0 X1 : Vec Ideal S32x1x4096 .f32) (X2 : Vec Ideal S32x4x4096 .f32) (X3 : Vec Ideal S4096x512 .bf16)
    (X4 : Vec Ideal S4x512x4096 .bf16) (X5 : Vec Ideal S4x4096 .f32) (r : Fin 32) (z : Fin 1) (q : Fin 4096) :
    Gen.out0_6 (F := Ideal) X0 X1 X2 X3 X4 X5 (ix3 r z q)
      = Cert.Spec.outAt (fun k => X0 (ix3 r (0 : Fin 1) k)) (fun k j => X3 (ix2 k j)) (fun w j => X4 (ix3 w j q))
          (fun w => X5 (ix2 w q)) (fun w => X2 (ix3 r w q)) (X1 (ix3 r (0 : Fin 1) q)) := by
  have hz3 : (![0, 0, 0] : Fin 3 → Nat) = fun _ => 0 := by funext a; fin_cases a <;> rfl
  have hz2 : (![0, 0] : Fin 2 → Nat) = fun _ => 0 := by funext a; fin_cases a <;> rfl
  -- the same-shape casts of the loaded blocks are the blocks
  have e3 : Gen.k0_pay3 (F := Ideal) X2 = X2 := shapeCast_self _ _
  have e4 : Gen.k0_pay4 (F := Ideal) X4 = X4 := shapeCast_self _ _
  have e5 : Gen.k0_pay5 (F := Ideal) X5 = X5 := shapeCast_self _ _
  -- the new token, the second tap's weights and bias, the hidden row
  have e2 : Gen.k0_pay2 (F := Ideal) X1 (ix2 r q) = X1 (ix3 r (0 : Fin 1) q) := shapeCast_a1b_ab_apply _ _ r q
  have e10 : ∀ j, Gen.k0_pay10 (F := Ideal) X4 (ix2 j q) = X4 (ix3 1 j q) := fun j => by
    dsimp only [Gen.k0_pay10]; rw [e4]; exact w2_slice_apply X4 1 _ 1 rfl j q
  have e11 : Gen.k0_pay11 (F := Ideal) X5 (ix2 (0 : Fin 1) q) = X5 (ix2 1 q) := by
    dsimp only [Gen.k0_pay11]; rw [e5]; exact b2_slice_apply X5 1 _ 1 rfl q
  have eh : (fun j => Gen.k0_pay6 (F := Ideal) X0 X3 (ix2 r j))
      = Cert.Spec.hidden (fun k => X0 (ix3 r (0 : Fin 1) k)) (fun k j => X3 (ix2 k j)) :=
    funext fun j => hidden_apply X0 X3 r j
  unfold Gen.out0_6
  rw [View.canon_unit_zero hz3]
  simp only [View.ld_unit_zero (S := S32x1x4096) hz3, View.ld_unit_zero (S := S32x4x4096) hz3,
    View.ld_unit_zero (S := S4x512x4096) hz3, View.ld_unit_zero (S := S4096x512) hz2, View.ld_unit_zero (S := S4x4096) hz2]
  unfold Gen.k0_pay1
  refine (shapeCast_ab_a1b_apply _ _ r z q).trans ?_
  rw [pay17_apply, pay8_apply, e3, e4, e5, e2, e11, eh]
  simp only [e10]
  unfold Cert.Spec.outAt
  rw [Fin.sum_univ_four, Cert.Spec.tap_zero, Cert.Spec.tap_one, Cert.Spec.tap_two, Cert.Spec.tap_three, zero_add]

/-- The rectangle of row `w` of the window buffer places `(a, b, c)` at `(a, w, c)`. -/
theorem emb_row (o : Nat) (inb : ∀ a, (![0, o, 0] : Fin 3 → Nat) a + S32x1x4096.size a ≤ S32x4x4096.size a)
    (w : Fin 4) (hw : w.val = o) (a : Fin 32) (b : Fin 1) (c : Fin 4096) :
    (Rect.unit (s := S32x4x4096) ![0, o, 0] S32x1x4096.size inb).emb (ix3 a b c) = ix3 a w c := by
  funext d; apply Fin.ext
  match d with
  | ⟨0, _⟩ => show 0 + 1 * a.val = a.val; omega
  | ⟨1, _⟩ => show o + 1 * b.val = w.val; omega
  | ⟨2, _⟩ => show 0 + 1 * c.val = c.val; omega

/-- Tap `w` of the cached window, stored back as a row `[32, 1, 4096]`. -/
theorem window_row_apply (X2 : FVec Ideal S32x4x4096 .f32) (o : Nat) (h : S32x4x4096.Slices ![0, o, 0] S32x1x4096)
    (w : Fin 4) (hw : w.val = o) (a : Fin 32) (b : Fin 1) (c : Fin 4096) :
    shapeCast S32x1x4096
        (shapeCast S32x4096 (extractStridedSlice S32x1x4096 ![0, o, 0] X2 h) shapeCasts_S32x1x4096_S32x4096)
        shapeCasts_S32x4096_S32x1x4096 (ix3 a b c)
      = X2 (ix3 a w c) := by
  rw [shapeCast_ab_a1b_apply]; exact tap_slice_apply X2 o h w hw a c

/-- Row `r`, tap `w`, channel `q` of the second output block: the shifted window. -/
theorem out7_apply (X0 X1 : Vec Ideal S32x1x4096 .f32) (X2 : Vec Ideal S32x4x4096 .f32) (X3 : Vec Ideal S4096x512 .bf16)
    (X4 : Vec Ideal S4x512x4096 .bf16) (X5 : Vec Ideal S4x4096 .f32) (r : Fin 32) (w : Fin 4) (q : Fin 4096) :
    Gen.out0_7 (F := Ideal) X0 X1 X2 X3 X4 X5 (ix3 r w q)
      = Cert.Spec.tap (fun w' => X2 (ix3 r w' q)) (X1 (ix3 r (0 : Fin 1) q)) w := by
  have hz3 : (![0, 0, 0] : Fin 3 → Nat) = fun _ => 0 := by funext a; fin_cases a <;> rfl
  have e3 : Gen.k0_pay3 (F := Ideal) X2 = X2 := shapeCast_self _ _
  unfold Gen.out0_7
  simp only [View.ld_unit_zero (S := S32x1x4096) hz3, View.ld_unit_zero (S := S32x4x4096) hz3, e3]
  -- the shifted window as one function of the block index
  let G : S32x4x4096.Idx → Elt Ideal .f32 := fun y =>
    Cert.Spec.tap (fun w' => X2 (ix3 (y 0 : Fin 32) w' (y 2 : Fin 4096))) (X1 (ix3 (y 0 : Fin 32) (0 : Fin 1) (y 2 : Fin 4096))) (y 1 : Fin 4)
  refine (View.canon_apply_of_pieces G _ ?_ (ix3 r w q) (Gen.cover0_7 _ _ _ _ _)).trans rfl
  intro p hp
  simp only [List.mem_cons, List.not_mem_nil, or_false] at hp
  rcases hp with rfl | rfl | rfl | rfl
  · intro x
    obtain ⟨a, b, c, rfl⟩ : ∃ a b c, x = ix3 a b c := ⟨_, _, _, eq_ix3 x⟩
    show Gen.k0_pay16 (F := Ideal) (Gen.k0_pay2 X1) (ix3 a b c) = G (Gen.r0_8.emb (ix3 a b c))
    rw [emb_row 3 _ 3 rfl]
    dsimp only [Gen.k0_pay16, Gen.k0_pay2]
    rw [shapeCast_ab_a1b_apply, shapeCast_a1b_ab_apply]
    rfl
  · intro x
    obtain ⟨a, b, c, rfl⟩ : ∃ a b c, x = ix3 a b c := ⟨_, _, _, eq_ix3 x⟩
    show Gen.k0_pay15 (F := Ideal) X2 (ix3 a b c) = G (Gen.r0_7.emb (ix3 a b c))
    rw [emb_row 2 _ 2 rfl]
    dsimp only [Gen.k0_pay15, Gen.k0_pay14]
    rw [window_row_apply X2 3 _ 3 rfl]
    rfl
  · intro x
    obtain ⟨a, b, c, rfl⟩ : ∃ a b c, x = ix3 a b c := ⟨_, _, _, eq_ix3 x⟩
    show Gen.k0_pay13 (F := Ideal) X2 (ix3 a b c) = G (Gen.r0_6.emb (ix3 a b c))
    rw [emb_row 1 _ 1 rfl]
    dsimp only [Gen.k0_pay13, Gen.k0_pay12]
    rw [window_row_apply X2 2 _ 2 rfl]
    rfl
  · intro x
    obtain ⟨a, b, c, rfl⟩ : ∃ a b c, x = ix3 a b c := ⟨_, _, _, eq_ix3 x⟩
    show Gen.k0_pay9 (F := Ideal) X2 (ix3 a b c) = G (Gen.r0_5.emb (ix3 a b c))
    rw [emb_row 0 _ 0 rfl]
    dsimp only [Gen.k0_pay9, Gen.k0_pay7]
    rw [e3, window_row_apply X2 1 _ 1 rfl]
    rfl

end Cert.KernelIdeal.Body

end
-- ==== Proof.KernelBlocks.lean ====
/-
  From blocks to arrays. Grid point `t` (of 128) works on tokens `32t .. 32t + 31`: every batch-tiled window's block
  `t` is rows `32t + r` of its array, the three weight windows are their whole arrays at every point. So what point `t`
  writes back is block `t` of the specification's arrays, the blocks tile the token axis, and the two result arrays of
  the call end holding the specification's arrays.
-/
import proofs.«147391_j74431783239845_2_alg».proof.Proof.Gen.KernelIdeal.Frame
import proofs.«147391_j74431783239845_2_alg».proof.Proof.Spec
import proofs.«147391_j74431783239845_2_alg».proof.Proof.KernelEntry
import proofs.«147391_j74431783239845_2_alg».proof.Proof.KernelBody
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The printed index maps over the grid: the batch-tiled windows sit at block `(t, 0, 0)`, the weights at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- Token `32t + r`: row `r` of block `t`. -/
def tok (t : Fin cfg0.N) (r : Fin 32) : Fin 4096 := ⟨t.val * 32 + r.val, by have := t.isLt; have : cfg0.N = 128 := N_0; omega⟩

/-- Row `r` of block `t` of the generator input is token `32t + r`'s row. -/
theorem blk0_apply (c : Dev nD) (t : Fin cfg0.N) (r : Fin 32) (z : Fin 1) (k : Fin 4096) :
    iblk m c 0 t (ix3 r z k) = m ((c : Thread nD τ).loc main_arg1) (ix3 (tok t r) z k) := by
  show V m c main_arg1 (((cfg0.win 0).blk t).view.emb (ix3 r z k)) = _
  rw [V_main_arg1]
  obtain ⟨e0, e1, e2, -⟩ := idx_facts t
  refine congrArg _ (funext fun a => Fin.ext ?_)
  match a with
  | ⟨0, _⟩ => show win0_0.index t (0 : Fin 3) * 32 + 1 * r.val = t.val * 32 + r.val; omega
  | ⟨1, _⟩ => show win0_0.index t (1 : Fin 3) * 1 + 1 * z.val = z.val; omega
  | ⟨2, _⟩ => show win0_0.index t (2 : Fin 3) * 4096 + 1 * k.val = k.val; omega

/-- Row `r` of block `t` of the new tokens is token `32t + r`'s row. -/
theorem blk1_apply (c : Dev nD) (t : Fin cfg0.N) (r : Fin 32) (z : Fin 1) (q : Fin 4096) :
    iblk m c 1 t (ix3 r z q) = m ((c : Thread nD τ).loc main_arg0) (ix3 (tok t r) z q) := by
  show V m c main_arg0 (((cfg0.win 1).blk t).view.emb (ix3 r z q)) = _
  rw [V_main_arg0]
  obtain ⟨-, -, -, e0, e1, e2, -⟩ := idx_facts t
  refine congrArg _ (funext fun a => Fin.ext ?_)
  match a with
  | ⟨0, _⟩ => show win0_1.index t (0 : Fin 3) * 32 + 1 * r.val = t.val * 32 + r.val; omega
  | ⟨1, _⟩ => show win0_1.index t (1 : Fin 3) * 1 + 1 * z.val = z.val; omega
  | ⟨2, _⟩ => show win0_1.index t (2 : Fin 3) * 4096 + 1 * q.val = q.val; omega

/-- Row `r`, tap `w`, channel `q` of block `t` of the laid-out cache is the cache at token `32t + r`, channel `q`, tap `w`. -/
theorem blk2_apply (c : Dev nD) (t : Fin cfg0.N) (r : Fin 32) (w : Fin 4) (q : Fin 4096) :
    iblk m c 2 t (ix3 r w q) = m ((c : Thread nD τ).loc main_arg2) (ix3 (tok t r) q w) := by
  refine Eq.trans ?_ (Entry.cacheT_apply m c (tok t r) w q)
  show V m c main_v6 (((cfg0.win 2).blk t).view.emb (ix3 r w q)) = V m c main_v6 (ix3 (tok t r) w q)
  obtain ⟨-, -, -, -, -, -, e0, e1, e2, -⟩ := idx_facts t
  refine congrArg _ (funext fun a => Fin.ext ?_)
  match a with
  | ⟨0, _⟩ => show win0_2.index t (0 : Fin 3) * 32 + 1 * r.val = t.val * 32 + r.val; omega
  | ⟨1, _⟩ => show win0_2.index t (1 : Fin 3) * 4 + 1 * w.val = w.val; omega
  | ⟨2, _⟩ => show win0_2.index t (2 : Fin 3) * 4096 + 1 * q.val = q.val; omega

/-- The first weight matrix is whole at every point. -/
theorem blk3_apply (c : Dev nD) (t : Fin cfg0.N) (k : Fin 4096) (j : Fin 512) :
    iblk m c 3 t (ix2 k j) = m ((c : Thread nD τ).loc main_arg3) (ix2 k j) := by
  refine Eq.trans ?_ (Entry.w1_apply m c k j)
  show V m c main_v0 (((cfg0.win 3).blk t).view.emb (ix2 k j)) = V m c main_v0 (ix2 k j)
  obtain ⟨-, -, -, -, -, -, -, -, -, e0, e1, -⟩ := idx_facts t
  refine congrArg _ (funext fun a => Fin.ext ?_)
  match a with
  | ⟨0, _⟩ => show win0_3.index t (0 : Fin 2) * 4096 + 1 * k.val = k.val; omega
  | ⟨1, _⟩ => show win0_3.index t (1 : Fin 2) * 512 + 1 * j.val = j.val; omega

/-- The per-tap second weight matrices are whole at every point: entry `(w, j, q)` is `w2[j, 4q + w]`. -/
theorem blk4_apply (c : Dev nD) (t : Fin cfg0.N) (w : Fin 4) (j : Fin 512) (q : Fin 4096) :
    iblk m c 4 t (ix3 w j q) = m ((c : Thread nD τ).loc main_arg4) (ix2 j (Cert.Spec.col q w)) := by
  refine Eq.trans ?_ (Entry.w2r_apply m c w j q)
  show V m c main_v3 (((cfg0.win 4).blk t).view.emb (ix3 w j q)) = V m c main_v3 (ix3 w j q)
  obtain ⟨-, -, -, -, -, -, -, -, -, -, -, e0, e1, e2, -⟩ := idx_facts t
  refine congrArg _ (funext fun a => Fin.ext ?_)
  match a with
  | ⟨0, _⟩ => show win0_4.index t (0 : Fin 3) * 4 + 1 * w.val = w.val; omega
  | ⟨1, _⟩ => show win0_4.index t (1 : Fin 3) * 512 + 1 * j.val = j.val; omega
  | ⟨2, _⟩ => show win0_4.index t (2 : Fin 3) * 4096 + 1 * q.val = q.val; omega

/-- The per-tap bias rows are whole at every point: entry `(w, q)` is `b2[4q + w]`. -/
theorem blk5_apply (c : Dev nD) (t : Fin cfg0.N) (w : Fin 4) (q : Fin 4096) :
    iblk m c 5 t (ix2 w q) = m ((c : Thread nD τ).loc main_arg5) (ix1 (Cert.Spec.col q w)) := by
  refine Eq.trans ?_ (Entry.b2r_apply m c w q)
  show V m c main_v5 (((cfg0.win 5).blk t).view.emb (ix2 w q)) = V m c main_v5 (ix2 w q)
  obtain ⟨-, -, -, -, -, -, -, -, -, -, -, -, -, -, e0, e1, -⟩ := idx_facts t
  refine congrArg _ (funext fun a => Fin.ext ?_)
  match a with
  | ⟨0, _⟩ => show win0_5.index t (0 : Fin 2) * 4 + 1 * w.val = w.val; omega
  | ⟨1, _⟩ => show win0_5.index t (1 : Fin 2) * 4096 + 1 * q.val = q.val; omega

/-! ## What each point writes back -/

/-- The first result of the call, `[4096, 1, 4096]`, as the specification's function of the arguments. -/
abbrev G6 (c : Dev nD) : S4096x1x4096.Idx → EReal :=
  Cert.Spec.Gout (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The second result of the call, `[4096, 4, 4096]` (token, tap, channel): the shifted window, tap axis in the middle. -/
abbrev G7 (c : Dev nD) : S4096x4x4096.Idx → EReal :=
  Cert.Spec.GcacheT (m ((c : Thread nD τ).loc main_arg0)) (m ((c : Thread nD τ).loc main_arg2))

/-- Point `t` writes back block `t` of the first result. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext y
  obtain ⟨r, z, q, rfl⟩ : ∃ (r : Fin 32) (z : Fin 1) (q : Fin 4096), y = ix3 r z q := ⟨y 0, y 1, y 2, eq_ix3 y⟩
  show out0_6 (iblk m c 0 t) (iblk m c 1 t) (iblk m c 2 t) (iblk m c 3 t) (iblk m c 4 t) (iblk m c 5 t) (ix3 r z q)
    = G6 m c (((cfg0.win 6).blk t).view.emb (ix3 r z q))
  have hemb : ((cfg0.win 6).blk t).view.emb (ix3 r z q) = (ix3 (tok t r) z q : S4096x1x4096.Idx) := by
    obtain ⟨-, -, -, -, -, -, -, -, -, -, -, -, -, -, -, -, e0, e1, e2, -⟩ := idx_facts t
    refine funext fun a => Fin.ext ?_
    match a with
    | ⟨0, _⟩ => show win0_6.index t (0 : Fin 3) * 32 + 1 * r.val = t.val * 32 + r.val; omega
    | ⟨1, _⟩ => show win0_6.index t (1 : Fin 3) * 1 + 1 * z.val = z.val; omega
    | ⟨2, _⟩ => show win0_6.index t (2 : Fin 3) * 4096 + 1 * q.val = q.val; omega
  rw [hemb]
  refine (Body.out6_apply (iblk m c 0 t) (iblk m c 1 t) (iblk m c 2 t) (iblk m c 3 t) (iblk m c 4 t) (iblk m c 5 t) r z q).trans ?_
  show _ = Cert.Spec.outVal (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (tok t r) q
  unfold Cert.Spec.outVal
  simp only [blk0_apply, blk1_apply, blk2_apply, blk3_apply, blk4_apply, blk5_apply]

/-- Point `t` writes back block `t` of the second result. -/
theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  funext y
  obtain ⟨r, w, q, rfl⟩ : ∃ (r : Fin 32) (w : Fin 4) (q : Fin 4096), y = ix3 r w q := ⟨y 0, y 1, y 2, eq_ix3 y⟩
  show out0_7 (iblk m c 0 t) (iblk m c 1 t) (iblk m c 2 t) (iblk m c 3 t) (iblk m c 4 t) (iblk m c 5 t) (ix3 r w q)
    = G7 m c (((cfg0.win 7).blk t).view.emb (ix3 r w q))
  have hemb : ((cfg0.win 7).blk t).view.emb (ix3 r w q) = (ix3 (tok t r) w q : S4096x4x4096.Idx) := by
    obtain ⟨-, -, -, -, -, -, -, -, -, -, -, -, -, -, -, -, -, -, -, e0, e1, e2⟩ := idx_facts t
    refine funext fun a => Fin.ext ?_
    match a with
    | ⟨0, _⟩ => show win0_7.index t (0 : Fin 3) * 32 + 1 * r.val = t.val * 32 + r.val; omega
    | ⟨1, _⟩ => show win0_7.index t (1 : Fin 3) * 4 + 1 * w.val = w.val; omega
    | ⟨2, _⟩ => show win0_7.index t (2 : Fin 3) * 4096 + 1 * q.val = q.val; omega
  rw [hemb]
  refine (Body.out7_apply (iblk m c 0 t) (iblk m c 1 t) (iblk m c 2 t) (iblk m c 3 t) (iblk m c 4 t) (iblk m c 5 t) r w q).trans ?_
  show _ = Cert.Spec.cacheVal (m ((c : Thread nD τ).loc main_arg0)) (m ((c : Thread nD τ).loc main_arg2)) (tok t r) q w
  unfold Cert.Spec.cacheVal
  simp only [blk1_apply, blk2_apply]

/-! ## The blocks tile the token axis -/

theorem mem_blk6 (t : Fin cfg0.N) (i : S4096x1x4096.Idx) :
    i ∈ ((cfg0.win 6).blk t).view.set ↔ ∀ a : Fin 3, win0_6.index t a * S32x1x4096.size a ≤ (i a).val ∧ (i a).val < win0_6.index t a * S32x1x4096.size a + S32x1x4096.size a := by
  show i ∈ ((View.whole main_v7_0).slice (win0_6.rect t)).set ↔ _
  rw [View.set_slice_whole, Rect.mem_set_unit]
  exact Iff.rfl

theorem mem_blk7 (t : Fin cfg0.N) (i : S4096x4x4096.Idx) :
    i ∈ ((cfg0.win 7).blk t).view.set ↔ ∀ a : Fin 3, win0_7.index t a * S32x4x4096.size a ≤ (i a).val ∧ (i a).val < win0_7.index t a * S32x4x4096.size a + S32x4x4096.size a := by
  show i ∈ ((View.whole main_v7_1).slice (win0_7.rect t)).set ↔ _
  rw [View.set_slice_whole, Rect.mem_set_unit]
  exact Iff.rfl

/-- Token `b` is in the block of point `b / 32`. -/
theorem cover6 (i : S4096x1x4096.Idx) : ∃ t : Fin cfg0.N, (cfg0.win 6).flush t = true ∧ i ∈ ((cfg0.win 6).blk t).view.set := by
  have hN : cfg0.N = 128 := N_0
  have h0 : (i 0).val < 4096 := (i 0).isLt
  have h1 : (i 1).val < 1 := (i 1).isLt
  have h2 : (i 2).val < 4096 := (i 2).isLt
  refine ⟨⟨(i 0).val / 32, by omega⟩, flush0_6 _, ?_⟩
  rw [mem_blk6]
  obtain ⟨-, -, -, -, -, -, -, -, -, -, -, -, -, -, -, -, e0, e1, e2, -⟩ := idx_facts ⟨(i 0).val / 32, by omega⟩
  intro a
  match a with
  | ⟨0, _⟩ => show win0_6.index _ (0 : Fin 3) * 32 ≤ (i 0).val ∧ (i 0).val < win0_6.index _ (0 : Fin 3) * 32 + 32; rw [e0]; show (i 0).val / 32 * 32 ≤ (i 0).val ∧ (i 0).val < (i 0).val / 32 * 32 + 32; omega
  | ⟨1, _⟩ => show win0_6.index _ (1 : Fin 3) * 1 ≤ (i 1).val ∧ (i 1).val < win0_6.index _ (1 : Fin 3) * 1 + 1; rw [e1]; omega
  | ⟨2, _⟩ => show win0_6.index _ (2 : Fin 3) * 4096 ≤ (i 2).val ∧ (i 2).val < win0_6.index _ (2 : Fin 3) * 4096 + 4096; rw [e2]; omega

theorem cover7 (i : S4096x4x4096.Idx) : ∃ t : Fin cfg0.N, (cfg0.win 7).flush t = true ∧ i ∈ ((cfg0.win 7).blk t).view.set := by
  have hN : cfg0.N = 128 := N_0
  have h0 : (i 0).val < 4096 := (i 0).isLt
  have h1 : (i 1).val < 4 := (i 1).isLt
  have h2 : (i 2).val < 4096 := (i 2).isLt
  refine ⟨⟨(i 0).val / 32, by omega⟩, flush0_7 _, ?_⟩
  rw [mem_blk7]
  obtain ⟨-, -, -, -, -, -, -, -, -, -, -, -, -, -, -, -, -, -, -, e0, e1, e2⟩ := idx_facts ⟨(i 0).val / 32, by omega⟩
  intro a
  match a with
  | ⟨0, _⟩ => show win0_7.index _ (0 : Fin 3) * 32 ≤ (i 0).val ∧ (i 0).val < win0_7.index _ (0 : Fin 3) * 32 + 32; rw [e0]; show (i 0).val / 32 * 32 ≤ (i 0).val ∧ (i 0).val < (i 0).val / 32 * 32 + 32; omega
  | ⟨1, _⟩ => show win0_7.index _ (1 : Fin 3) * 4 ≤ (i 1).val ∧ (i 1).val < win0_7.index _ (1 : Fin 3) * 4 + 4; rw [e1]; omega
  | ⟨2, _⟩ => show win0_7.index _ (2 : Fin 3) * 4096 ≤ (i 2).val ∧ (i 2).val < win0_7.index _ (2 : Fin 3) * 4096 + 4096; rw [e2]; omega

/-! ## The call's two result arrays -/

theorem final6 (c : Dev nD) : (dats m 0 c).arrAt 6 cfg0.N = G6 m c :=
  (dats m 0 c).arrAt_eq_of_cover 6 (G6 m c) (fun t _ => flushed6_eq m c t) cover6

theorem final7 (c : Dev nD) : (dats m 0 c).arrAt 7 cfg0.N = G7 m c :=
  (dats m 0 c).arrAt_eq_of_cover 7 (G7 m c) (fun t _ => flushed7_eq m c t) cover7

end Cert.KernelIdeal.Blocks

end
-- ==== Proof.KernelRun.lean ====
/-
  The kernel program's run, read: after the call the host swaps the second result's two trailing axes back, so the
  program ends with the specification's two arrays and its arguments as launched.
-/
import proofs.«147391_j74431783239845_2_alg».proof.Proof.Gen.KernelIdeal.Frame
import proofs.«147391_j74431783239845_2_alg».proof.Proof.Spec
import proofs.«147391_j74431783239845_2_alg».proof.Proof.KernelBlocks
import Idealize.ShloMosaic.Lib.Pipeline.Value
import Idealize.ShloMosaic.Lib.ValueIdx
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The second result of the program: the call's `[4096, 4, 4096]` result with its trailing axes swapped is the
    shifted window `[4096, 4096, 4]`. -/
theorem tail8 (c : Dev nD) :
    Pipeline.afterTail₀ cfgs (dats m) 0 (V0 m) [hostOps1] c main_v8
      = Cert.Spec.Gcache (m ((c : Thread nD τ).loc main_arg0)) (m ((c : Thread nD τ).loc main_arg2)) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7_1)
      = Blocks.G7 m c :=
    (Pipeline.withArrays_arr spec0 launch0.win.arr_inj c _ _ 7).trans (Blocks.final7 m c)
  rw [hw]
  funext i
  obtain ⟨b, d, w, rfl⟩ : ∃ (b d : Fin 4096) (w : Fin 4), i = ix3 b d w := ⟨i 0, i 1, i 2, eq_ix3 i⟩
  refine (transpose_apply [0, 2, 1] _ transposes_S4096x4x4096_S4096x4096x4_0_2_1 (ix3 b d w) (ix3 b w d) (fun a => match a with
    | ⟨0, _⟩ => rfl
    | ⟨1, _⟩ => rfl
    | ⟨2, _⟩ => rfl)).trans ?_
  rfl

/-- Every weakly fair execution of the kernel program terminates with its first result at the specification's
    convolution output, its second at the shifted window, and its arguments as launched. -/
theorem run : θ_run defs (onTc (τ := τ) (main (F := Ideal))) ⟨m, fun _ => 0, ρ⟩ fun r => ∀ c : Dev nD,
      r.2.mem ((c.tc : Thread nD τ).loc main_v7_0) = Blocks.G6 m c
      ∧ r.2.mem ((c.tc : Thread nD τ).loc main_v8) = Cert.Spec.Gcache (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (Blocks.final6 m c),
      ((h c).2 main_v8 (Pipeline.mem_restRefs_of main_v8 (by decide) (by decide))).trans (tail8 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.lean ====
/-
  A per-token dynamic causal depthwise convolution whose four-tap filter is predicted from a generator vector by a
  two-layer perceptron, together with the shift of the cached window — the fused kernel against its jnp reference, on
  the extended reals.

  Both programs compute, for token `b` and channel `d`,
      out[b, d] = silu (∑ w < 4, tap_w[b, d] · (∑ j, hidden[b, j] · w2[j, 4d + w] + b2[4d + w])),
      hidden[b, j] = silu (∑ k, g[b, k] · w1[k, j]),
  with `tap_w = cache[b, d, w + 1]` for `w < 3` and `tap_3 = x[b, d]`, and return the taps as the new window
  (Proof/Spec.lean). The kernel works on 32 tokens per grid point, takes the second layer's weights one `[512, 4096]`
  matrix per tap and the cache with the channel axis last (laid out by the host before the call, and the new window
  laid back after it), adds the four products one after the other onto zero, and uses the logistic function; the
  reference forms the whole `[4096, 16384]` second layer, reshapes it, concatenates the window, sums over the tap axis
  and spells the logistic function `1 / (1 + exp (-s))`. On the extended reals a change of float format is the identity,
  the two spellings of the logistic function are one function, and the two orders of the four-term sum agree by
  associativity of addition; no finiteness of the inputs is used.

  The kernel side reads the body's two stores entry by entry (Proof/KernelBody.lean), the laid-out arrays at an entry of
  the arguments (Proof/KernelEntry.lean), carries the blocks to the whole arrays (Proof/KernelBlocks.lean) and runs the
  host line after the call (Proof/KernelRun.lean); the reference side reads its stages entry by entry (Proof/RefSide.lean).
  The idealization rewrote nothing, so the kernel as printed and its idealization differ only in the instance they are read at.
-/
import proofs.«147391_j74431783239845_2_alg».proof.Defs
import proofs.«147391_j74431783239845_2_alg».proof.Proof.Gen.Kernel
import proofs.«147391_j74431783239845_2_alg».proof.Proof.Gen.Kernel.Skeleton
import proofs.«147391_j74431783239845_2_alg».proof.Proof.Gen.Kernel.Launch
import proofs.«147391_j74431783239845_2_alg».proof.Proof.Gen.Kernel.Points
import proofs.«147391_j74431783239845_2_alg».proof.Proof.Gen.Kernel.Frame
import proofs.«147391_j74431783239845_2_alg».proof.Proof.Gen.KernelIdeal
import proofs.«147391_j74431783239845_2_alg».proof.Proof.Gen.KernelIdeal.Skeleton
import proofs.«147391_j74431783239845_2_alg».proof.Proof.Gen.KernelIdeal.Launch
import proofs.«147391_j74431783239845_2_alg».proof.Proof.Gen.KernelIdeal.Points
import proofs.«147391_j74431783239845_2_alg».proof.Proof.Gen.KernelIdeal.Frame
import proofs.«147391_j74431783239845_2_alg».proof.Proof.Gen.ReferenceIdeal
import proofs.«147391_j74431783239845_2_alg».proof.Proof.Gen.Pre_finite_inputs
import proofs.«147391_j74431783239845_2_alg».proof.Proof.Gen.ReferenceIdeal.Run
import proofs.«147391_j74431783239845_2_alg».proof.Proof.Gen.ReferenceIdeal.Read
import proofs.«147391_j74431783239845_2_alg».proof.Proof.Spec
import proofs.«147391_j74431783239845_2_alg».proof.Proof.RefSide
import proofs.«147391_j74431783239845_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the six arguments both programs end with the specification's two arrays of those
    arguments: the convolution output and the shifted window. -/
theorem algebraic : Cert.algebraic_KernelIdeal_ReferenceIdeal := by
  intro m ρ m' ρ' _ hagree
  refine ⟨fun c => Cert.KernelIdeal.Blocks.G6 m c,
    fun c => Cert.Spec.Gcache (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v14_eq, Cert.ReferenceIdeal.RefValue.ref_out,
      (hagree c).1, (hagree c).2.1, (hagree c).2.2.1, (hagree c).2.2.2.1, (hagree c).2.2.2.2.1, (hagree c).2.2.2.2.2]
  · rw [(h c).2.1, Cert.ReferenceIdeal.Read.val_main_v10_eq, Cert.ReferenceIdeal.RefValue.ref_cache,
      (hagree c).1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
